-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S128000x512 : Shape := ⟨2, ![128000, 512]⟩
abbrev S1024 : Shape := ⟨1, ![1024]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S128000x512 : S_.BroadcastsInDim S128000x512 (![] : Fin 0 → Fin S128000x512.rank)
  reducesTo_S128000x512_S_d0_1 : S128000x512.ReducesTo [0, 1] S_

variable [Facts]

def fn {F : FTy → Type} [FloatOps F] (main_arg0 : FVec F S1024x512 .f32) (main_arg1 : FVec F S128000x512 .f32) (main_arg2 : IVec S1024 32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S128000x512 .f32 := Host.absf main_arg1
  let main_cst_0 : FVec F S_ .f32 := constant S_ .f32 0x7F800000#32
  let main_v5 : FVec F S128000x512 .f32 := broadcastInDim S128000x512 ![] bcast_S_S128000x512 main_cst_0
  let main_v6 : IVec S128000x512 1 := cmpf .olt main_v4 main_v5
  let main_c_1 : IVec S_ 1 := constantI S_ 1 1#1
  let main_v7 : IVec S_ 1 := (fun x v => Host.reduce IntOp.andi x v reducesTo_S128000x512_S_d0_1 h_S_) main_v6 main_c_1
  let main_v8 : IVec S_ 1 := andi main_v3 main_v7
  main_v8
-- ==== Kernel.lean ====
abbrev S1024x512 : Shape := ⟨2, ![1024, 512]⟩
abbrev S128000x512 : Shape := ⟨2, ![128000, 512]⟩
abbrev S1024 : Shape := ⟨1, ![1024]⟩
abbrev S_ : Shape := ⟨0, ![]⟩
abbrev S1024x1 : Shape := ⟨2, ![1024, 1]⟩
abbrev S2x1024x1 : Shape := ⟨3, ![2, 1024, 1]⟩
abbrev S2000x512 : Shape := ⟨2, ![2000, 512]⟩
abbrev S1x1024x1 : Shape := ⟨3, ![1, 1024, 1]⟩
abbrev S1024x2000 : Shape := ⟨2, ![1024, 2000]⟩

abbrev nBuf : Space → Nat
  | .hbm => 37
  | .vmem => 7
  | .smem => 0
  | _ => 0

abbrev bufTy : (tb : Table) → Fin (tcTables nBuf tb) → BufTy
  | .hbm, ⟨0, _⟩ => ⟨S1024x512, .f32⟩
  | .hbm, ⟨1, _⟩ => ⟨S128000x512, .f32⟩
  | .hbm, ⟨2, _⟩ => ⟨S1024, .i32⟩
  | .hbm, ⟨3, _⟩ => ⟨S1024x512, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S1024x1, .f32⟩
  | .hbm, ⟨8, _⟩ => ⟨S_, .f32⟩
  | .hbm, ⟨9, _⟩ => ⟨S1024x1, .f32⟩
  | .hbm, ⟨10, _⟩ => ⟨S1024x1, .f32⟩
  | .hbm, ⟨11, _⟩ => ⟨S1024x512, .f32⟩
  | .hbm, ⟨12, _⟩ => ⟨S1024x512, .f32⟩
  | .hbm, ⟨13, _⟩ => ⟨S_, .i32⟩
  | .hbm, ⟨14, _⟩ => ⟨S1024, .i32⟩
  | .hbm, ⟨15, _⟩ => ⟨S1024, .i1⟩
  | .hbm, ⟨16, _⟩ => ⟨S_, .i32⟩
  | .hbm, ⟨17, _⟩ => ⟨S1024, .i32⟩
  | .hbm, ⟨18, _⟩ => ⟨S1024, .i32⟩
  | .hbm, ⟨19, _⟩ => ⟨S1024, .i32⟩
  | .hbm, ⟨20, _⟩ => ⟨S1024x1, .i32⟩
  | .hbm, ⟨21, _⟩ => ⟨S1024x512, .f32⟩
  | .hbm, ⟨22, _⟩ => ⟨S1024x512, .f32⟩
  | .hbm, ⟨23, _⟩ => ⟨S_, .f32⟩
  | .hbm, ⟨24, _⟩ => ⟨S1024, .f32⟩
  | .hbm, ⟨25, _⟩ => ⟨S1024x1, .f32⟩
  | .hbm, ⟨26, _⟩ => ⟨S_, .f32⟩
  | .hbm, ⟨27, _⟩ => ⟨S1024x1, .f32⟩
  | .hbm, ⟨28, _⟩ => ⟨S1024x1, .f32⟩
  | .hbm, ⟨29, _⟩ => ⟨S1024x512, .bf16⟩
  | .hbm, ⟨30, _⟩ => ⟨S2x1024x1, .f32⟩
  | .hbm, ⟨31, _⟩ => ⟨S_, .f32⟩
  | .hbm, ⟨32, _⟩ => ⟨S1024x1, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .local _ .vmem, ⟨0, _⟩ => ⟨S1024x512, .bf16⟩
  | .local _ .vmem, ⟨1, _⟩ => ⟨S2000x512, .f32⟩
  | .local _ .vmem, ⟨2, _⟩ => ⟨S2000x512, .f32⟩
  | .local _ .vmem, ⟨3, _⟩ => ⟨S1024x1, .f32⟩
  | .local _ .vmem, ⟨4, _⟩ => ⟨S1x1024x1, .f32⟩
  | .local _ .vmem, ⟨5, _⟩ => ⟨S1x1024x1, .f32⟩
  | .local _ .vmem, ⟨6, _⟩ => ⟨S1024x1, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v21 : BitVec 1 := Scalar.cmpi .eq arg1 c31_i32
  let v22 : BitVec 32 := Scalar.extui v21
  let c0_i32_12 : BitVec 32 := 0#32
  let v23 : BitVec 1 := Scalar.cmpi .ne v22 c0_i32_12
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  reducesTo_S1024x512_S1024_d1 : S1024x512.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x512_0_1 : S1024x1.BroadcastsInDim S1024x512 (![0, 1] : Fin 2 → Fin S1024x512.rank)
  bcast_S_S1024 : S_.BroadcastsInDim S1024 (![] : Fin 0 → Fin S1024.rank)
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S2000x512_S2000x512_0_0 : ∀ a, (![0, 0] : Fin 2 → Nat) a + S2000x512.size a ≤ S2000x512.size a
  h_S2000x512 : 0 < S2000x512.numel
  broadcasts_S1024x1_S1024x2000 : S1024x1.Broadcasts S1024x2000
  reduces_S1024x2000_S1024 : S1024x2000.Reduces [1] S1024
  shapeCasts_S1024_S1024x1 : S1024.ShapeCasts S1024x1
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  reducesTo_S2x1024x1_S1024x1_d0 : S2x1024x1.ReducesTo [0] S1024x1
  reducesTo_S1024x1_S_d0_1 : S1024x1.ReducesTo [0, 1] S_
  gather_S128000x512_S1024x1_S1024x512_1_0_n_n_0_1_1512_wf : GatherDims.WF S128000x512 S1024x1 S1024x512 [1] [0] [] [0] [] 1 ![1, 512]
  dot_S1024x512_S2000x512_S1024x2000_1_1_0_0_n_n_wf : DotDims.WF S1024x512 S2000x512 S1024x2000 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S1024x512.size a
  hwx0_0 : ∀ i : grid0.Coords, EltTy.bits .bf16 = 32 ∨ (Rect.block (s := S1024x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x512.size a ≤ S128000x512.size a
  hwx0_1 : ∀ i : grid0.Coords, EltTy.bits .f32 = 32 ∨ (Rect.block (s := S128000x512) S2000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S1024x1.size a
  hwx0_2 : ∀ i : grid0.Coords, EltTy.bits .f32 = 32 ∨ (Rect.block (s := S1024x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1.size a ≤ S2x1024x1.size a
  hwx0_3 : ∀ i : grid0.Coords, EltTy.bits .f32 = 32 ∨ (Rect.block (s := S2x1024x1) S1x1024x1.size (cc0_transform_3 i) (hinb0_3 i)).WholeWords (EltTy.packing .f32)

variable [Facts₀]

def gather_S128000x512_S1024x1_S1024x512_1_0_n_n_0_1_1512 : GatherDims S128000x512 S1024x1 S1024x512 where
  offsetDims := [1]
  collapsedSliceDims := [0]
  operandBatchingDims := []
  startIndicesBatchingDims := []
  startIndexMap := [0]
  indexVectorDim := 1
  sliceSizes := ![1, 512]
  wf := gather_S128000x512_S1024x1_S1024x512_1_0_n_n_0_1_1512_wf
def dot_S1024x512_S2000x512_S1024x2000_1_1_0_0_n_n : DotDims S1024x512 S2000x512 S1024x2000 where
  lhsContracting := [1]
  rhsContracting := [1]
  lhsNonContracting := [0]
  rhsNonContracting := [0]
  lhsBatch := []
  rhsBatch := []
  wf := dot_S1024x512_S2000x512_S1024x2000_1_1_0_0_n_n_wf

abbrev win0_0 : Pipeline.Window sig grid0 :=
  Pipeline.Window.ofSpec (Memref.whole main_v17) S1024x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1024x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S1024x512 : Shape := ⟨2, ![1024, 512]⟩
abbrev S128000x512 : Shape := ⟨2, ![128000, 512]⟩
abbrev S1024 : Shape := ⟨1, ![1024]⟩
abbrev S_ : Shape := ⟨0, ![]⟩
abbrev S1024x1 : Shape := ⟨2, ![1024, 1]⟩
abbrev S1024x128000 : Shape := ⟨2, ![1024, 128000]⟩

abbrev nBuf : Space → Nat
  | .hbm => 41
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S128000x512, .f32⟩
  | .hbm, ⟨2, _⟩ => ⟨S1024, .i32⟩
  | .hbm, ⟨3, _⟩ => ⟨S1024x512, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S1024x1, .f32⟩
  | .hbm, ⟨8, _⟩ => ⟨S_, .f32⟩
  | .hbm, ⟨9, _⟩ => ⟨S1024x1, .f32⟩
  | .hbm, ⟨10, _⟩ => ⟨S1024x1, .f32⟩
  | .hbm, ⟨11, _⟩ => ⟨S1024x512, .f32⟩
  | .hbm, ⟨12, _⟩ => ⟨S1024x512, .f32⟩
  | .hbm, ⟨13, _⟩ => ⟨S1024x128000, .f32⟩
  | .hbm, ⟨14, _⟩ => ⟨S_, .i32⟩
  | .hbm, ⟨15, _⟩ => ⟨S1024, .i32⟩
  | .hbm, ⟨16, _⟩ => ⟨S1024, .i1⟩
  | .hbm, ⟨17, _⟩ => ⟨S_, .i32⟩
  | .hbm, ⟨18, _⟩ => ⟨S1024, .i32⟩
  | .hbm, ⟨19, _⟩ => ⟨S1024, .i32⟩
  | .hbm, ⟨20, _⟩ => ⟨S1024, .i32⟩
  | .hbm, ⟨21, _⟩ => ⟨S1024x1, .i32⟩
  | .hbm, ⟨22, _⟩ => ⟨S1024x512, .f32⟩
  | .hbm, ⟨23, _⟩ => ⟨S1024x512, .f32⟩
  | .hbm, ⟨24, _⟩ => ⟨S_, .f32⟩
  | .hbm, ⟨25, _⟩ => ⟨S1024, .f32⟩
  | .hbm, ⟨26, _⟩ => ⟨S1024x1, .f32⟩
  | .hbm, ⟨27, _⟩ => ⟨S_, .f32⟩
  | .hbm, ⟨28, _⟩ => ⟨S1024x128000, .f32⟩
  | .hbm, ⟨29, _⟩ => ⟨S1024x128000, .f32⟩
  | .hbm, ⟨30, _⟩ => ⟨S1024x128000, .f32⟩
  | .hbm, ⟨31, _⟩ => ⟨S1024x128000, .f32⟩
  | .hbm, ⟨32, _⟩ => ⟨S_, .f32⟩
  | .hbm, ⟨33, _⟩ => ⟨S1024x128000, .f32⟩
  | .hbm, ⟨34, _⟩ => ⟨S1024x128000, .f32⟩
  | .hbm, ⟨35, _⟩ => ⟨S_, .f32⟩
  | .hbm, ⟨36, _⟩ => ⟨S1024, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call1_cst : Ref sig .tc := ⟨.hbm, 32, rfl⟩
abbrev main_call1_v0 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩

abbrev nD : Nat := 1
abbrev τ : Topo := Topo.v7x

variable {F : FTy → Type} [FloatOps F]

class Facts₀ : Prop where
  reducesTo_S1024x512_S1024_d1 : S1024x512.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x512_0_1 : S1024x1.BroadcastsInDim S1024x512 (![0, 1] : Fin 2 → Fin S1024x512.rank)
  bcast_S_S1024 : S_.BroadcastsInDim S1024 (![] : Fin 0 → Fin S1024.rank)
  bcast_S_S1024x128000 : S_.BroadcastsInDim S1024x128000 (![] : Fin 0 → Fin S1024x128000.rank)
  bcast_S1024x1_S1024x128000_0_1 : S1024x1.BroadcastsInDim S1024x128000 (![0, 1] : Fin 2 → Fin S1024x128000.rank)
  reducesTo_S1024x128000_S1024_d1 : S1024x128000.ReducesTo [1] S1024
  reducesTo_S1024_S_d0 : S1024.ReducesTo [0] S_
  dot_S1024x512_S128000x512_S1024x128000_1_1_0_0_n_n_wf : DotDims.WF S1024x512 S128000x512 S1024x128000 [1] [1] [0] [0] [] []
  gather_S128000x512_S1024x1_S1024x512_1_0_n_n_0_1_1512_wf : GatherDims.WF S128000x512 S1024x1 S1024x512 [1] [0] [] [0] [] 1 ![1, 512]

variable [Facts₀]

def dot_S1024x512_S128000x512_S1024x128000_1_1_0_0_n_n : DotDims S1024x512 S128000x512 S1024x128000 where
  lhsContracting := [1]
  rhsContracting := [1]
  lhsNonContracting := [0]
  rhsNonContracting := [0]
  lhsBatch := []
  rhsBatch := []
  wf := dot_S1024x512_S128000x512_S1024x128000_1_1_0_0_n_n_wf
def gather_S128000x512_S1024x1_S1024x512_1_0_n_n_0_1_1512 : GatherDims S128000x512 S1024x1 S1024x512 where
  offsetDims := [1]
  collapsedSliceDims := [0]
  operandBatchingDims := []
  startIndicesBatchingDims := []
  startIndexMap := [0]
  indexVectorDim := 1
  sliceSizes := ![1, 512]
  wf := gather_S128000x512_S1024x1_S1024x512_1_0_n_n_0_1_1512_wf

class Facts : Prop extends Facts₀ where

variable [Facts]
-- ==== Proof.Spec.lean ====
/-
  The mathematics both programs compute, stated once over abstract arrays of extended reals.

  Given the normalised rows `X` (1024 × 512), the embedding table `W` (128000 × 512) and, per row `b`, the score
  `N b` of the row's true class, the margin-ranking loss is

      ( Σ_b Σ_v max (margin + ⟨X b, W v⟩ − N b, 0) ) / 1024 .

  The reference forms the hinge as `(margin + s) − N b` and sums a row over all 128000 classes at once
  (`lossRef`).  The kernel is handed `N' b = N b − margin`, forms the hinge as `s − N' b`, and sums a row in 64 tiles of
  2000 classes: tiles 0…31 accumulate into the first partial sum, tiles 32…63 into the second, each partial sum
  restarting from zero at its first tile (`acc`); the two partial sums are then added per row, the rows added, and the
  total divided by 1024 (`lossKer`).
-/
import Idealize.ShloMosaic.PureOps.Ideal
import Idealize.ShloMosaic.PureOps.Ideal.Laws
import Idealize.ShloMosaic.Lib.ValueIdx

noncomputable section

open scoped BigOperators

namespace Cert.RankLoss

open Idealize.ShloMosaic Idealize.ShloMosaic.ValueIdx

/-- The shapes of the normalised rows, the embedding table and the per-row column. -/
abbrev SX : Shape := ⟨2, ![1024, 512]⟩
abbrev SW : Shape := ⟨2, ![128000, 512]⟩
abbrev SN : Shape := ⟨2, ![1024, 1]⟩

/-- The three float literals both programs carry, as the extended reals their patterns denote: zero, the margin
    (the binary32 nearest 0.1) and the batch size 1024. -/
abbrev zero32 : EReal := Ideal.ofBits .f32 0x00000000#32
abbrev margin : EReal := Ideal.ofBits .f32 0x3DCCCCCD#32
abbrev batch : EReal := Ideal.ofBits .f32 0x44800000#32

variable (X : SX.Idx → EReal) (W : SW.Idx → EReal)

/-- The score of row `b` against class `v`: the inner product over the 512 features. -/
def score (b : Fin 1024) (v : Fin 128000) : EReal := ∑ d : Fin 512, X (ix2 b d) * W (ix2 v d)

/-- The reference's hinge: `max ((margin + s) − N b) 0`. -/
def hingeRef (N : SN.Idx → EReal) (b : Fin 1024) (v : Fin 128000) : EReal :=
  max ((margin + score X W b v) - N (ix2 b 0)) zero32

/-- The reference's loss: every row summed over all classes from zero, the rows summed from zero, over 1024. -/
def lossRef (N : SN.Idx → EReal) : EReal :=
  Ideal.div (zero32 + ∑ b : Fin 1024, (zero32 + ∑ v : Fin 128000, hingeRef X W N b v)) batch

/-- The kernel's hinge, over the column `N'` it is handed: `max (s − N' b) 0`. -/
def hingeKer (N' : SN.Idx → EReal) (b : Fin 1024) (v : Fin 128000) : EReal :=
  max (score X W b v - N' (ix2 b 0)) zero32

/-- Class `v` of tile `p`: tile `p` holds the classes `2000 p … 2000 p + 1999`. -/
def tileClass (p : Fin 64) (v : Fin 2000) : Fin 128000 := ⟨p.val * 2000 + v.val, by have := p.isLt; have := v.isLt; omega⟩

/-- Row `b`'s hinges summed over tile `p`. -/
def tileSum (N' : SN.Idx → EReal) (p : Fin 64) (b : Fin 1024) : EReal :=
  ∑ v : Fin 2000, hingeKer X W N' b (tileClass p v)

/-- The running partial sum after tile `n`: it restarts from zero at tiles 0 and 32 and otherwise adds the tile's sum to
    what the tile before left. -/
def acc (N' : SN.Idx → EReal) : (n : ℕ) → n < 64 → Fin 1024 → EReal
  | 0, h, b => zero32 + tileSum X W N' ⟨0, h⟩ b
  | n + 1, h, b =>
    if (n + 1) % 32 = 0 then zero32 + tileSum X W N' ⟨n + 1, h⟩ b
    else acc N' n (Nat.lt_of_succ_lt h) b + tileSum X W N' ⟨n + 1, h⟩ b

/-- The kernel's loss: per row the two partial sums (after tiles 31 and 63) added from zero, the rows added from
    zero, over 1024. -/
def lossKer (N' : SN.Idx → EReal) : EReal :=
  Ideal.div (zero32 + ∑ i : SN.Idx, (zero32 + ∑ c : Fin 2,
    acc X W N' (32 * c.val + 31) (by have := c.isLt; omega) (i 0))) batch

end Cert.RankLoss

end
-- ==== Proof.Algebra.lean ====
/-
  The kernel's and the reference's arrangements of the margin-ranking loss are the same extended real.

  Two facts join them.  First, the hinges agree term by term: the margin is a real number, and for a real r the identity
  s − (n − r) = (r + s) − n holds for ALL extended reals s and n (a real summand never meets an infinity of the
  opposite sign, so the negation distributes over n − r).  Second, addition of extended reals is associative and
  commutative, so a row's sum over the 128000 classes may be cut into 64 consecutive tiles of 2000 classes, the tiles
  gathered into two runs of 32, each run accumulated from zero, and the two runs added: the running partial sum after
  tile 32 c + k is the sum of the tiles 32 c … 32 c + k, and the tiles together list every class exactly once.
-/
import proofs.«139743_j48730698940765_2_alg».proof.Proof.Spec

noncomputable section

open scoped BigOperators

namespace Cert.RankLoss

open Idealize.ShloMosaic Idealize.ShloMosaic.ValueIdx

/-! ## The literals -/

/-- The zero pattern denotes zero. -/
theorem zero32_eq : zero32 = 0 := Ideal.ofBits_zero_f32

/-- The margin's pattern denotes a real number (a normal binary32: 13421773 · 2⁻²⁷). -/
theorem margin_real : ∃ r : ℝ, margin = (r : EReal) := by
  refine ⟨((13421773 : ℝ) * (2 : ℝ) ^ (-27 : Int) : ℝ), ?_⟩
  simp [Ideal.ofBits, Ideal.ieee, -EReal.coe_mul]

/-! ## The hinges agree term by term -/

/-- Moving a real across a difference: no finiteness is asked of s or n. -/
theorem sub_sub_coe (s n : EReal) (r : ℝ) : s - (n - (r : EReal)) = ((r : EReal) + s) - n := by
  rw [sub_eq_add_neg s, EReal.neg_sub (Or.inr (EReal.coe_ne_bot r)) (Or.inr (EReal.coe_ne_top r)),
    sub_eq_add_neg, add_comm (-n) (r : EReal), ← add_assoc, add_comm s (r : EReal)]

variable (X : SX.Idx → EReal) (W : SW.Idx → EReal)

/-- The kernel's hinge over the shifted column is the reference's hinge. -/
theorem hingeKer_eq_hingeRef (N : SN.Idx → EReal) (b : Fin 1024) (v : Fin 128000) :
    hingeKer X W (fun i => N i - margin) b v = hingeRef X W N b v := by
  obtain ⟨r, hr⟩ := margin_real
  show max (score X W b v - (N (ix2 b 0) - margin)) zero32 = max ((margin + score X W b v) - N (ix2 b 0)) zero32
  rw [hr, sub_sub_coe]

/-! ## Sums over consecutive tiles -/

/-- A sum over P consecutive tiles of T terms each is the sum over the first P · T terms. -/
theorem sum_tiles {M : Type*} [AddCommMonoid M] (g : ℕ → M) (T : ℕ) :
    ∀ P : ℕ, ∑ p ∈ Finset.range P, ∑ v ∈ Finset.range T, g (p * T + v) = ∑ n ∈ Finset.range (P * T), g n
  | 0 => by simp
  | P + 1 => by rw [Finset.sum_range_succ, sum_tiles g T P, Nat.succ_mul, Finset.sum_range_add]

/-- A function on the classes, extended by zero to all naturals. -/
def ext0 (f : Fin 128000 → EReal) (n : ℕ) : EReal := if h : n < 128000 then f ⟨n, h⟩ else 0

theorem ext0_val (f : Fin 128000 → EReal) (V : Fin 128000) : ext0 f V.val = f V := by
  unfold ext0; rw [dif_pos V.isLt]

/-- The sum over all classes as a sum over an initial segment of the naturals. -/
theorem sum_classes (f : Fin 128000 → EReal) : ∑ V : Fin 128000, f V = ∑ n ∈ Finset.range 128000, ext0 f n := by
  rw [← Fin.sum_univ_eq_sum_range]
  exact Finset.sum_congr rfl (fun V _ => (ext0_val f V).symm)

/-- The sum over one tile as a sum over a segment of the naturals. -/
theorem sum_tile (f : Fin 128000 → EReal) (p : Fin 64) :
    ∑ v : Fin 2000, f (tileClass p v) = ∑ v ∈ Finset.range 2000, ext0 f (p.val * 2000 + v) := by
  rw [← Fin.sum_univ_eq_sum_range (fun v => ext0 f (p.val * 2000 + v))]
  exact Finset.sum_congr rfl (fun v _ => (ext0_val f (tileClass p v)).symm)

/-! ## The running partial sum in closed form -/

variable (N' : SN.Idx → EReal)

/-- The tile sum with a natural tile number, zero beyond the 64 tiles. -/
def tileSumN (n : ℕ) (b : Fin 1024) : EReal := if h : n < 64 then tileSum X W N' ⟨n, h⟩ b else 0

theorem tileSumN_lt (n : ℕ) (h : n < 64) (b : Fin 1024) : tileSumN X W N' n b = tileSum X W N' ⟨n, h⟩ b := by
  unfold tileSumN; rw [dif_pos h]

/-- At a tile whose number is a multiple of 32 the partial sum restarts from zero. -/
theorem acc_restart (n : ℕ) (h : n < 64) (hn : n % 32 = 0) (b : Fin 1024) :
    acc X W N' n h b = zero32 + tileSum X W N' ⟨n, h⟩ b := by
  cases n with
  | zero => rfl
  | succ m => rw [acc, if_pos hn]

/-- At any other tile it adds the tile's sum to what the tile before left. -/
theorem acc_step (m : ℕ) (h : m + 1 < 64) (hn : (m + 1) % 32 ≠ 0) (b : Fin 1024) :
    acc X W N' (m + 1) h b = acc X W N' m (Nat.lt_of_succ_lt h) b + tileSum X W N' ⟨m + 1, h⟩ b := by
  rw [acc, if_neg hn]

/-- After tile 32 c + k (k < 32) the partial sum is zero plus the sums of the tiles 32 c … 32 c + k. -/
theorem acc_closed (b : Fin 1024) (c : ℕ) : ∀ (k : ℕ) (h : 32 * c + k < 64), k < 32 →
    acc X W N' (32 * c + k) h b = zero32 + ∑ j ∈ Finset.range (k + 1), tileSumN X W N' (32 * c + j) b
  | 0, h, _ => by
    rw [acc_restart X W N' (32 * c + 0) h (by omega), Finset.sum_range_one, tileSumN_lt X W N' (32 * c + 0) h]
  | k + 1, h, hk => by
    have ih := acc_closed b c k (by omega) (by omega)
    show acc X W N' ((32 * c + k) + 1) h b = _
    rw [acc_step X W N' (32 * c + k) h (by omega), ih, Finset.sum_range_succ _ (k + 1), add_assoc,
      tileSumN_lt X W N' (32 * c + (k + 1)) h]
    rfl

/-! ## One row -/

/-- A row's two partial sums together are the row's sum over all classes. -/
theorem row_eq (b : Fin 1024) :
    ∑ c : Fin 2, acc X W N' (32 * c.val + 31) (by have := c.isLt; omega) b
      = ∑ V : Fin 128000, hingeKer X W N' b V := by
  have hc : ∀ c : Fin 2, acc X W N' (32 * c.val + 31) (by have := c.isLt; omega) b
      = ∑ j ∈ Finset.range 32, tileSumN X W N' (32 * c.val + j) b := fun c => by
    rw [acc_closed X W N' b c.val 31 (by have := c.isLt; omega) (by omega), zero32_eq, zero_add]
  have ht : ∀ n : ℕ, n < 64 → tileSumN X W N' n b
      = ∑ v ∈ Finset.range 2000, ext0 (hingeKer X W N' b) (n * 2000 + v) := fun n hn => by
    rw [tileSumN_lt X W N' n hn]
    exact sum_tile (hingeKer X W N' b) ⟨n, hn⟩
  rw [Finset.sum_congr rfl (fun c _ => hc c), Fin.sum_univ_two, sum_classes]
  have h64 : ∑ p ∈ Finset.range 64, tileSumN X W N' p b
      = ∑ n ∈ Finset.range 128000, ext0 (hingeKer X W N' b) n := by
    rw [Finset.sum_congr rfl (fun p hp => ht p (Finset.mem_range.mp hp))]
    exact sum_tiles (ext0 (hingeKer X W N' b)) 2000 64
  rw [← h64, show (64 : ℕ) = 32 + 32 from rfl, Finset.sum_range_add]
  simp only [Fin.val_zero, Fin.val_one, Nat.mul_zero, Nat.zero_add, Nat.mul_one]

/-! ## The two losses -/

/-- A sum over the one-column index set of a term that reads only the row is the sum over the rows. -/
theorem sum_rows (G : Fin 1024 → EReal) : ∑ i : SN.Idx, G (i 0) = ∑ b : Fin 1024, G b := by
  refine (sum_idx2 (n0 := 1024) (n1 := 1) (fun i => G (i 0))).trans ?_
  refine Finset.sum_congr rfl (fun b _ => ?_)
  rw [Fin.sum_univ_one]

theorem lossKer_eq_lossRef (N : SN.Idx → EReal) :
    lossKer X W (fun i => N i - margin) = lossRef X W N := by
  have hrow : ∀ b : Fin 1024,
      zero32 + ∑ c : Fin 2, acc X W (fun i => N i - margin) (32 * c.val + 31) (by have := c.isLt; omega) b
        = zero32 + ∑ v : Fin 128000, hingeRef X W N b v := fun b => by
    rw [row_eq]
    exact congrArg (zero32 + ·) (Finset.sum_congr rfl (fun v _ => hingeKer_eq_hingeRef X W N b v))
  unfold lossKer lossRef
  rw [sum_rows (fun b => zero32 + ∑ c : Fin 2,
    acc X W (fun i => N i - margin) (32 * c.val + 31) (by have := c.isLt; omega) b)]
  rw [Finset.sum_congr rfl (fun b _ => hrow b)]

end Cert.RankLoss

end
-- ==== Proof.RefSide.lean ====
/-
  The reference side of the margin-ranking loss.

  The reference program normalises the rows of the input (`X = inputs / max(‖inputs‖, eps)`), gathers the score
  `N b = ⟨X b, W[target b]⟩` of each row's true class as a column of shape 1024 × 1, and then computes

      ( 0 + Σ_b ( 0 + Σ_v max ((margin + ⟨X b, W v⟩) − N b, 0) ) ) / 1024

  with every operation exact on the extended reals.  This file reads that last expression off the program's stages:
  the inner product over the 512 features, the added margin, the column `N` broadcast along the class axis and
  subtracted, the maximum with the broadcast zero, the sum of each row over its 128000 classes starting from the zero
  constant, the sum of the rows starting from the zero constant, and the division by the constant 1024.

  Two stages are left opaque: the normalised rows `X` and the column `N` of true-class scores.  They can be, because
  the loss above is a function of `X`, `W` and `N` as arrays, whatever values they hold: how the norm is taken and
  which row of `W` each target selects play no part in how the hinges are formed and summed.
-/
import proofs.«139743_j48730698940765_2_alg».proof.Defs
import proofs.«139743_j48730698940765_2_alg».proof.Proof.Gen.ReferenceIdeal.Run
import proofs.«139743_j48730698940765_2_alg».proof.Proof.Gen.ReferenceIdeal.Read
import proofs.«139743_j48730698940765_2_alg».proof.Proof.Spec

noncomputable section

open scoped BigOperators

namespace Cert.ReferenceIdeal.RefSide

open Cert.ReferenceIdeal Cert.ReferenceIdeal.Gen Idealize.ShloMosaic Idealize.ShloMosaic.TcCoe Idealize.SL.Sem Idealize.ShloMosaic.StableHlo Idealize.ShloMosaic.ValueIdx

/-- One element of the hinge array: at row `b` and class `v` the program holds
    `max ((margin + ⟨X b, W v⟩) − N b) 0`. -/
theorem hinge_value (x0 : (⟨S1024x512, .f32⟩ : BufTy).Contents (Elt Ideal)) (x1 : (⟨S128000x512, .f32⟩ : BufTy).Contents (Elt Ideal))
    (x2 : (⟨S1024, .i32⟩ : BufTy).Contents (Elt Ideal)) (b : Fin 1024) (v : Fin 128000) :
    Read.val_main_v20 (F := Ideal) x0 x1 x2 (ix2 b v)
      = Cert.RankLoss.hingeRef (Read.val_main_v4 (F := Ideal) x0) x1 (Read.val_main_v15 (F := Ideal) x0 x1 x2) b v := by
  rw [Read.val_main_v20_apply, Read.val_main_v19_apply, Read.val_main_v17_apply, Read.val_main_v18_apply,
    Read.val_main_v16_apply, Read.val_main_v5_apply, Read.val_main_call1_v0_apply, Read.val_main_cst_2_apply,
    Read.val_main_call1_cst_apply]
  generalize Read.val_main_v4 (F := Ideal) x0 = X
  generalize Read.val_main_v15 (F := Ideal) x0 x1 x2 = N
  have e18 : Read.idx_main_v18 (ix2 b v) = ix2 b 0 :=
    funext fun a => Fin.ext (by match a with | ⟨0, _⟩ => rfl | ⟨1, _⟩ => rfl)
  have el : ∀ k : Fin 512, Read.lidx_main_v5 (ix2 b v) k = ix2 b k := fun k =>
    funext fun a => Fin.ext (by match a with | ⟨0, _⟩ => rfl | ⟨1, _⟩ => rfl)
  have er : ∀ k : Fin 512, Read.ridx_main_v5 (ix2 b v) k = ix2 v k := fun k =>
    funext fun a => Fin.ext (by match a with | ⟨0, _⟩ => rfl | ⟨1, _⟩ => rfl)
  rw [e18]
  simp only [el, er, Ideal.addf_def, Ideal.subf_def, Ideal.maximumf_def, Ideal.ofBits_def]
  rfl

/-- One row summed: from the zero constant, the row's hinges over all 128000 classes. -/
theorem row_value (x0 : (⟨S1024x512, .f32⟩ : BufTy).Contents (Elt Ideal)) (x1 : (⟨S128000x512, .f32⟩ : BufTy).Contents (Elt Ideal))
    (x2 : (⟨S1024, .i32⟩ : BufTy).Contents (Elt Ideal)) (b : Fin 1024) :
    Read.val_main_v21 (F := Ideal) x0 x1 x2 (ix1 b)
      = Cert.RankLoss.zero32 + ∑ v : Fin 128000,
          Cert.RankLoss.hingeRef (Read.val_main_v4 (F := Ideal) x0) x1 (Read.val_main_v15 (F := Ideal) x0 x1 x2) b v := by
  rw [Read.val_main_v21_apply, Read.val_main_cst_3_apply]
  refine congrArg (_ + ·) (Finset.sum_congr rfl fun v _ => ?_)
  have e21 : Read.idx_main_v21 (ix1 b) v = ix2 b v :=
    funext fun a => Fin.ext (by match a with | ⟨0, _⟩ => rfl | ⟨1, _⟩ => rfl)
  rw [e21]
  exact hinge_value x0 x1 x2 b v

/-- The result: the rows summed from the zero constant, over 1024. -/
theorem ref_value (x0 : (⟨S1024x512, .f32⟩ : BufTy).Contents (Elt Ideal)) (x1 : (⟨S128000x512, .f32⟩ : BufTy).Contents (Elt Ideal))
    (x2 : (⟨S1024, .i32⟩ : BufTy).Contents (Elt Ideal)) :
    Read.val_main_v23 (F := Ideal) x0 x1 x2
      = fun _ => Cert.RankLoss.lossRef (Read.val_main_v4 (F := Ideal) x0) x1 (Read.val_main_v15 (F := Ideal) x0 x1 x2) := by
  funext i
  rw [Read.val_main_v23_apply, Read.val_main_v22_apply, Read.val_main_cst_4_apply, Read.val_main_cst_5_apply]
  have hsum : ∑ j : S1024.Idx, Read.val_main_v21 (F := Ideal) x0 x1 x2 j
      = ∑ b : Fin 1024, (Cert.RankLoss.zero32 + ∑ v : Fin 128000,
          Cert.RankLoss.hingeRef (Read.val_main_v4 (F := Ideal) x0) x1 (Read.val_main_v15 (F := Ideal) x0 x1 x2) b v) := by
    refine Fintype.sum_equiv ⟨fun j => j 0, fun b => ix1 b, fun j => (eq_ix1 j).symm, fun _ => rfl⟩ _ _ (fun j => ?_)
    exact (congrArg (Read.val_main_v21 (F := Ideal) x0 x1 x2) (eq_ix1 j)).trans (row_value x0 x1 x2 (j 0))
  rw [hsum]
  rfl

/-- Every weakly fair execution of the reference ends with its result at `lossRef` of the normalised rows, the
    embedding table and the column of true-class scores, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v23) = (fun _ => Cert.RankLoss.lossRef (Read.val_main_v4 (F := Ideal) (m ((c.tc : Thread nD τ).loc main_arg0))) (m ((c.tc : Thread nD τ).loc main_arg1)) (Read.val_main_v15 (F := Ideal) (m ((c.tc : Thread nD τ).loc main_arg0)) (m ((c.tc : Thread nD τ).loc main_arg1)) (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans ((Read.val_main_v23_eq _ _ _).trans (ref_value _ _ _)), (h c).2⟩)
    (Cert.ReferenceIdeal.Value.run (F := Ideal) m ρ)

end Cert.ReferenceIdeal.RefSide

end
-- ==== Proof.HostSide.lean ====
/-
  The host side of the kernel program: what its one region is handed, and what becomes of the region's result.

  Before the region the host computes, from the inputs `a0` (1024 × 512), the table `a1` (128000 × 512) and the
  targets `a2` (1024 integers):

    * the normalised rows  X = a0 / max (‖a0‖, eps)  — the row norm is the square root of the row's sum of squares,
      broadcast back along the features (`rowsK`).  The region's first array holds X after a change of float format,
      which at the extended reals is the identity (`V_rows`);
    * the column of true-class scores  N b = ⟨X b, a1[target b]⟩  — the target is wrapped once if negative, the table's
      row gathered, multiplied into X and summed along the features (`colK`).  The region's third array holds
      N b − margin (`V_col`);
    * the table itself, untouched (`V_table`).

  After the region the host takes the region's result array P (2 × 1024 × 1: per row the two partial sums the region
  accumulated over the first and the second half of the class tiles), adds the two partial sums of each row from zero,
  adds the 1024 rows from zero, and divides the total by 1024 (`tail_value`).
-/
import proofs.«139743_j48730698940765_2_alg».proof.Proof.Gen.KernelIdeal.Frame
import proofs.«139743_j48730698940765_2_alg».proof.Proof.Spec
import Idealize.ShloMosaic.Lib.StableHlo.Run
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Cert.KernelIdeal.HostSide

open Cert.KernelIdeal Cert.KernelIdeal.Gen
open Idealize.ShloMosaic Idealize.ShloMosaic.TcCoe Idealize.SL.Sem Idealize.ShloMosaic.StableHlo
open Idealize.ShloMosaic.ValueIdx Idealize.ShloMosaic.Pipeline

variable (m : (ℓ : Loc nD τ sig) → Buf (Elt Ideal) ℓ)

/-! ## Before the region -/

/-- The normalised rows as the host computes them: each row of `a0` divided by the larger of its Euclidean norm and
    the small constant `eps`. -/
def rowsK (a0 : S1024x512.Idx → EReal) : S1024x512.Idx → EReal :=
  Host.divf (F := Ideal) a0 (broadcastInDim S1024x512 ![0, 1] bcast_S1024x1_S1024x512_0_1 (maximumf (F := Ideal) (Host.sqrt (F := Ideal) (broadcastInDim S1024x1 ![0] bcast_S1024_S1024x1_0 (Host.reduceAdd (F := Ideal) (mulf (F := Ideal) a0 a0) (constant (F := Ideal) S_ .f32 0x00000000#32) reducesTo_S1024x512_S1024_d1 h_S_))) (broadcastInDim S1024x1 ![] bcast_S_S1024x1 (constant (F := Ideal) S_ .f32 0x2B8CBCCC#32))))

/-- The region's first array holds the normalised rows. -/
theorem V_rows (c : Dev nD) : (V m c main_v17 : S1024x512.Idx → EReal) = rowsK (m ((c : Thread nD τ).loc main_arg0)) := by
  dsimp only [Gen.V, Gen.V0]
  simp only [Gen.hostOps0, Gen.hostOps0_1, List.flatten_cons, List.flatten_nil, List.append_nil, List.cons_append, List.nil_append]
  after_results
  rfl

/-- The column of true-class scores as the host computes it: row `b` of the normalised rows against the table's row
    of `b`'s target (a negative target wrapped once by the table's height), summed along the features. -/
def colK (a0 : S1024x512.Idx → EReal) (a1 : S128000x512.Idx → EReal) (a2 : (⟨S1024, .i32⟩ : BufTy).Contents (Elt Ideal)) : S1024x1.Idx → EReal :=
  broadcastInDim S1024x1 ![0] bcast_S1024_S1024x1_0 (Host.reduceAdd (F := Ideal) (mulf (F := Ideal) (rowsK a0) (Host.gather gather_S128000x512_S1024x1_S1024x512_1_0_n_n_0_1_1512 a1 (broadcastInDim S1024x1 ![0] bcast_S1024_S1024x1_0 (select (cmpi .slt a2 (broadcastInDim S1024 ![] bcast_S_S1024 (constantI S_ 32 0#32))) (addi a2 (broadcastInDim S1024 ![] bcast_S_S1024 (constantI S_ 32 128000#32))) a2)))) (constant (F := Ideal) S_ .f32 0x00000000#32) reducesTo_S1024x512_S1024_d1 h_S_)

/-- The region's third array holds the true-class scores less the margin. -/
theorem V_col (c : Dev nD) (i : S1024x1.Idx) :
    (V m c main_v16 : S1024x1.Idx → EReal) i
      = colK (m ((c : Thread nD τ).loc main_arg0)) (m ((c : Thread nD τ).loc main_arg1)) (m ((c : Thread nD τ).loc main_arg2)) i
        - Cert.RankLoss.margin := by
  have e : (V m c main_v16 : S1024x1.Idx → EReal)
      = subf (F := Ideal) (colK (m ((c : Thread nD τ).loc main_arg0)) (m ((c : Thread nD τ).loc main_arg1)) (m ((c : Thread nD τ).loc main_arg2)))
          (broadcastInDim S1024x1 ![] bcast_S_S1024x1 (constant (F := Ideal) S_ .f32 0x3DCCCCCD#32)) := by
    dsimp only [Gen.V, Gen.V0]
    simp only [Gen.hostOps0, Gen.hostOps0_1, List.flatten_cons, List.flatten_nil, List.append_nil, List.cons_append, List.nil_append]
    after_results_simp
    rfl
  rw [e, ValueIdx.subf_apply]
  rfl

/-- The region's second array is the table as launched. -/
theorem V_table (c : Dev nD) : V m c main_arg1 = m ((c : Thread nD τ).loc main_arg1) := V_main_arg1 m c

/-! ## After the region -/

/-- What the host makes of the region's result array `P` (2 × 1024 × 1): the two partial sums of each row added from
    zero, the rows added from zero, the total divided by the batch size. -/
def tailOf (P : S2x1024x1.Idx → EReal) : S_.Idx → EReal :=
  Host.divf (F := Ideal) (Host.reduceAdd (F := Ideal) (Host.reduceAdd (F := Ideal) P (constant (F := Ideal) S_ .f32 0x00000000#32) reducesTo_S2x1024x1_S1024x1_d0 h_S_) (constant (F := Ideal) S_ .f32 0x00000000#32) reducesTo_S1024x1_S_d0_1 h_S_) (constant (F := Ideal) S_ .f32 0x44800000#32)

/-- The sum over the leading axis of a 2 × 1024 × 1 array, at a row: zero plus the row's two entries. -/
theorem pairSum_apply (P : S2x1024x1.Idx → EReal) (i : S1024x1.Idx) :
    (Host.reduceAdd (F := Ideal) P (constant (F := Ideal) S_ .f32 0x00000000#32) reducesTo_S2x1024x1_S1024x1_d0 h_S_ : S1024x1.Idx → EReal) i
      = Cert.RankLoss.zero32 + ∑ k : Fin 2, P (ix3 k (i 0) (i 1)) := by
  simp only [Host.reduceAdd, Ideal.hostReduceAdd_def]
  rw [Ideal.hostReduceAdd_single reducesTo_S2x1024x1_S1024x1_d0 (by decide)]
  refine congrArg (_ + ·) (Finset.sum_congr rfl fun k _ => ?_)
  exact congrArg P (funext fun a => Fin.ext (by match a with | ⟨0, _⟩ => rfl | ⟨1, _⟩ => rfl | ⟨2, _⟩ => rfl))

/-- The sum over both axes of a 1024 × 1 array: zero plus the sum of all its entries. -/
theorem totalSum_apply (Q : S1024x1.Idx → EReal) (j : S_.Idx) :
    (Host.reduceAdd (F := Ideal) Q (constant (F := Ideal) S_ .f32 0x00000000#32) reducesTo_S1024x1_S_d0_1 h_S_ : S_.Idx → EReal) j
      = Cert.RankLoss.zero32 + ∑ i : S1024x1.Idx, Q i := by
  simp only [Host.reduceAdd, Ideal.hostReduceAdd_def]
  exact Ideal.hostReduceAdd_total reducesTo_S1024x1_S_d0_1 (fun b => b.elim0) Q _ j

/-- The tail read out: per row the two partial sums added from zero, the rows added from zero, over the batch size. -/
theorem tailOf_eq (P : S2x1024x1.Idx → EReal) :
    tailOf P = fun _ => Ideal.div (Cert.RankLoss.zero32 + ∑ i : S1024x1.Idx,
      (Cert.RankLoss.zero32 + ∑ k : Fin 2, P (ix3 k (i 0) (i 1)))) Cert.RankLoss.batch := by
  funext j
  unfold tailOf
  generalize hQ : (Host.reduceAdd (F := Ideal) P (constant (F := Ideal) S_ .f32 0x00000000#32) reducesTo_S2x1024x1_S1024x1_d0 h_S_ : S1024x1.Idx → EReal) = Q
  show Ideal.div ((Host.reduceAdd (F := Ideal) Q (constant (F := Ideal) S_ .f32 0x00000000#32) reducesTo_S1024x1_S_d0_1 h_S_ : S_.Idx → EReal) j) Cert.RankLoss.batch = _
  rw [totalSum_apply Q j]
  subst hQ
  exact congrArg (fun s => Ideal.div (Cert.RankLoss.zero32 + s) Cert.RankLoss.batch)
    (Finset.sum_congr rfl fun i _ => pairSum_apply P i)

/-- The region's result array (2 × 1024 × 1) on core `c` when the region ends. -/
abbrev finalP (c : Dev nD) : S2x1024x1.Idx → EReal := (dats m 0 c).arrAt 3 cfg0.N

/-- It is the proof data's array of window 3 after the last grid point. -/
theorem finalP_eq (c : Dev nD) : finalP m c = (dats m 0 c).arrAt 3 cfg0.N := rfl

/-- After the host's last operations the result buffer holds the tail of the region's final result array. -/
theorem tail_eq_tailOf (c : Dev nD) :
    Pipeline.afterTail₀ cfgs (dats m) 0 (V0 m) [hostOps1] c main_v21 = tailOf (finalP m c) := by
  unfold Pipeline.afterTail₀
  show StableHlo.after hostOps1 _ (Proc.devRef .tc main_v21) = _
  after_results
  exact congrArg tailOf
    (Pipeline.withArrays_arr spec0 launch0.win.arr_inj c (V0 m c) (fun w => (dats m 0 c).arrAt w cfg0.N) 3)

/-- The program's result: per row the region's two partial sums added from zero, the rows added from zero, over the
    batch size. -/
theorem tail_value (c : Dev nD) :
    Pipeline.afterTail₀ cfgs (dats m) 0 (V0 m) [hostOps1] c main_v21
      = fun _ => Ideal.div (Cert.RankLoss.zero32 + ∑ i : S1024x1.Idx, (Cert.RankLoss.zero32 + ∑ k : Fin 2,
          finalP m c (ix3 k (i 0) (i 1)))) Cert.RankLoss.batch :=
  (tail_eq_tailOf m c).trans (tailOf_eq (finalP m c))

/-- The same over any name `P` for the region's final result array. -/
theorem tail_value_of (c : Dev nD) (P : S2x1024x1.Idx → EReal) (hP : finalP m c = P) :
    Pipeline.afterTail₀ cfgs (dats m) 0 (V0 m) [hostOps1] c main_v21
      = fun _ => Ideal.div (Cert.RankLoss.zero32 + ∑ i : S1024x1.Idx, (Cert.RankLoss.zero32 + ∑ k : Fin 2,
          P (ix3 k (i 0) (i 1)))) Cert.RankLoss.batch := by
  subst hP
  exact tail_value m c

end Cert.KernelIdeal.HostSide

end
-- ==== Proof.KernelBody.lean ====
/-
  What one run of the kernel body leaves behind, as values.

  The body keeps a column accumulator (1024 × 1) between grid points.  At a point it reads the resident block of
  normalised rows `x0` (1024 × 512), the current tile `x1` of the embedding table (2000 × 512) and the column `x2`
  (1024 × 1) it subtracts; it forms the 1024 × 2000 scores `x0 · x1ᵀ`, subtracts the column from every score of its row,
  clamps at zero, sums each row over the tile, and adds the row sums to the accumulator.  At the first point of a
  partial sum the accumulator is first overwritten with zeros; at the last point the accumulator is also copied into
  the output block.  The first half of this file reads these facts off the stores each control case performs; the
  second half reads the arithmetic at one row, over the extended reals.
-/
import proofs.«139743_j48730698940765_2_alg».proof.Proof.Gen.KernelIdeal.Frame
import proofs.«139743_j48730698940765_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open scoped BigOperators

namespace Cert.KernelIdeal.Body

open Cert.KernelIdeal Cert.KernelIdeal.Gen
open Idealize.ShloMosaic Idealize.ShloMosaic.TcCoe Idealize.SL.Sem Idealize.ShloMosaic.ValueIdx

variable {F : FTy → Type} [FloatOps F]

/-! ## What each control case leaves in the accumulator and in the output block

Every load and store of the body goes through the whole-shape rectangle at zero offsets of a whole buffer: such a
load reads the buffer's contents, such a store leaves its payload whatever was stored before, and a load after one
such store of the same run reads that store's payload. -/

/-- The zero offsets of a rank-2 rectangle, however they are spelt. -/
theorem offsets2_zero : (![0, 0] : Fin 2 → Nat) = fun _ => 0 := funext fun a => by fin_cases a <;> rfl

/-- The zero offsets of a rank-3 rectangle. -/
theorem offsets3_zero : (![0, 0, 0] : Fin 3 → Nat) = fun _ => 0 := funext fun a => by fin_cases a <;> rfl

/-- At the first point of a partial sum the accumulator ends at the tile's row sums added to the zero column: the
    body stores the zero column, reads it back, and stores the update of what it read; the later store wins. -/
theorem sout_A (c : Dev nD) (i : grid0.Coords) (a2 : Memref sig .tc .vmem S1024x512 .bf16) (h2 : a2.IsWhole) (a3 : Memref sig .tc .vmem S2000x512 .f32) (h3 : a3.IsWhole) (a4 : Memref sig .tc .vmem S1024x1 .f32) (h4 : a4.IsWhole) (a5 : Memref sig .tc .vmem S1x1024x1 .f32) (h5 : a5.IsWhole) (a6 : Memref sig .tc .vmem S1024x1 .f32) (h6 : a6.IsWhole) (hc0 : cond0_0 i) (hc1 : ¬cond0_1 i)
    (x0 : Vec F S1024x512 .bf16) (x1 : Vec F S2000x512 .f32) (x2 : Vec F S1024x1 .f32) :
    sout0_A_0 c i a2 h2 a3 h3 a4 h4 a5 h5 a6 h6 hc0 hc1 x0 x1 x2 = k0_pay2 x0 x1 x2 (k0_pay1 (F := F)) := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S1024x1) offsets2_zero, View.readCov_unit_zero (S := S1024x1) _ offsets2_zero]
  simp only [View.readAt_eq_ld, h2.read_unread, h3.read_unread, h4.read_unread,
    View.ld_unit_zero (S := S1024x512) offsets2_zero, View.ld_unit_zero (S := S2000x512) offsets2_zero,
    View.ld_unit_zero (S := S1024x1) offsets2_zero]

/-- At an inner point the accumulator ends at the tile's row sums added to what the point before left: one store,
    whose payload's loads read the whole buffers. -/
theorem sout_B (c : Dev nD) (i : grid0.Coords) (a2 : Memref sig .tc .vmem S1024x512 .bf16) (h2 : a2.IsWhole) (a3 : Memref sig .tc .vmem S2000x512 .f32) (h3 : a3.IsWhole) (a4 : Memref sig .tc .vmem S1024x1 .f32) (h4 : a4.IsWhole) (a5 : Memref sig .tc .vmem S1x1024x1 .f32) (h5 : a5.IsWhole) (a6 : Memref sig .tc .vmem S1024x1 .f32) (h6 : a6.IsWhole) (hc0 : ¬cond0_0 i) (hc1 : ¬cond0_1 i)
    (x0 : Vec F S1024x512 .bf16) (x1 : Vec F S2000x512 .f32) (x2 : Vec F S1024x1 .f32) (xs0 : Vec F S1024x1 .f32) :
    sout0_B_0 c i a2 h2 a3 h3 a4 h4 a5 h5 a6 h6 hc0 hc1 x0 x1 x2 xs0 = k0_pay2 x0 x1 x2 xs0 := by
  unfold sout0_B_0
  rw [View.read_writes_eq_canon _ _ _ (scover0_B_0 c i a2 h2 a3 h3 a4 h4 a5 h5 a6 h6 hc0 hc1 x0 x1 x2 xs0)]
  unfold kernelRun0_B
  dsimp only
  rw [View.canon_unit_zero offsets2_zero]
  simp only [View.readAt_eq_ld, h2.read_unread, h3.read_unread, h4.read_unread, h6.read_unread,
    View.ld_unit_zero (S := S1024x512) offsets2_zero, View.ld_unit_zero (S := S2000x512) offsets2_zero,
    View.ld_unit_zero (S := S1024x1) offsets2_zero]

/-- At the last point of a partial sum the accumulator ends likewise, -/
theorem sout_C (c : Dev nD) (i : grid0.Coords) (a2 : Memref sig .tc .vmem S1024x512 .bf16) (h2 : a2.IsWhole) (a3 : Memref sig .tc .vmem S2000x512 .f32) (h3 : a3.IsWhole) (a4 : Memref sig .tc .vmem S1024x1 .f32) (h4 : a4.IsWhole) (a5 : Memref sig .tc .vmem S1x1024x1 .f32) (h5 : a5.IsWhole) (a6 : Memref sig .tc .vmem S1024x1 .f32) (h6 : a6.IsWhole) (hc0 : ¬cond0_0 i) (hc1 : cond0_1 i)
    (x0 : Vec F S1024x512 .bf16) (x1 : Vec F S2000x512 .f32) (x2 : Vec F S1024x1 .f32) (xs0 : Vec F S1024x1 .f32) :
    sout0_C_0 c i a2 h2 a3 h3 a4 h4 a5 h5 a6 h6 hc0 hc1 x0 x1 x2 xs0 = k0_pay2 x0 x1 x2 xs0 := by
  unfold sout0_C_0
  rw [View.read_writes_eq_canon _ _ _ (scover0_C_0 c i a2 h2 a3 h3 a4 h4 a5 h5 a6 h6 hc0 hc1 x0 x1 x2 xs0)]
  unfold kernelRun0_C
  dsimp only
  sl_unfold_words
  rw [View.canon_unit_zero (S := S1024x1) offsets2_zero]
  simp only [View.readAt_eq_ld, h2.read_unread, h3.read_unread, h4.read_unread, h6.read_unread,
    View.ld_unit_zero (S := S1024x512) offsets2_zero, View.ld_unit_zero (S := S2000x512) offsets2_zero,
    View.ld_unit_zero (S := S1024x1) offsets2_zero]

/-- and the output block is that accumulator with a leading unit axis: the block's one store takes what a load of the
    accumulator reads after the update was stored, which is the update. -/
theorem out_C (c : Dev nD) (i : grid0.Coords) (a2 : Memref sig .tc .vmem S1024x512 .bf16) (h2 : a2.IsWhole) (a3 : Memref sig .tc .vmem S2000x512 .f32) (h3 : a3.IsWhole) (a4 : Memref sig .tc .vmem S1024x1 .f32) (h4 : a4.IsWhole) (a5 : Memref sig .tc .vmem S1x1024x1 .f32) (h5 : a5.IsWhole) (a6 : Memref sig .tc .vmem S1024x1 .f32) (h6 : a6.IsWhole) (hc0 : ¬cond0_0 i) (hc1 : cond0_1 i)
    (x0 : Vec F S1024x512 .bf16) (x1 : Vec F S2000x512 .f32) (x2 : Vec F S1024x1 .f32) (xs0 : Vec F S1024x1 .f32) :
    out0_C_3 c i a2 h2 a3 h3 a4 h4 a5 h5 a6 h6 hc0 hc1 x0 x1 x2 xs0 = k0_pay3 (k0_pay2 x0 x1 x2 xs0) := by
  unfold out0_C_3
  rw [View.read_writes_eq_canon _ _ _ (cover0_C_3 c i a2 h2 a3 h3 a4 h4 a5 h5 a6 h6 hc0 hc1 x0 x1 x2 xs0)]
  unfold kernelRun0_C
  dsimp only
  sl_unfold_words
  rw [View.canon_unit_zero (S := S1x1024x1) offsets3_zero, View.readCov_unit_zero (S := S1024x1) _ offsets2_zero]
  simp only [View.readAt_eq_ld, h2.read_unread, h3.read_unread, h4.read_unread, h6.read_unread,
    View.ld_unit_zero (S := S1024x512) offsets2_zero, View.ld_unit_zero (S := S2000x512) offsets2_zero,
    View.ld_unit_zero (S := S1024x1) offsets2_zero]

/-! ## The arithmetic at one row, over the extended reals

Two layout steps the body takes and the library does not state at these ranks — a vector read as a column, and a
column repeated along the rows' second axis — then the lane sum, the matrix product and the whole update at one row. -/

section Layout
variable {α : Type}

/-- A vector `[a]` cast to a column `[a, 1]` reads, at `(i, u)`, the vector at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The zero column: the constant zero repeated over the 1024 rows, through a cast between equal shapes. -/
theorem pay1_apply (j : S1024x1.Idx) : k0_pay1 (F := Ideal) j = Cert.RankLoss.zero32 := by
  unfold k0_pay1
  rw [shapeCast_self]
  rfl

/-- The lane sum of a 1024 × 2000 array at row `b`: the sum over the 2000 columns of the row's entries. -/
theorem rowSum_apply (src : FVec Ideal S1024x2000 .f32) (hφ : FKind.Formats .f32)
    (hacc : (0x00000000#32 : BitVec FTy.f32.bits) = FKind.add.neutral .f32 hφ) (b : Fin 1024) :
    multiReduction (F := Ideal) .add [1] S1024 src 0x00000000#32 reduces_S1024x2000_S1024 hφ hacc (ix1 b)
      = ∑ v : Fin 2000, src (ix2 b v) := by
  refine (Ideal.multiReduction_add_single src 0x00000000#32 reduces_S1024x2000_S1024 hφ hacc (ix1 b)).trans ?_
  show ∑ v : Fin 2000, src (reduces_S1024x2000_S1024.lift (ix1 b) v) = _
  refine Finset.sum_congr rfl fun v _ => congrArg src (funext fun a => ?_)
  match a with
  | ⟨0, _⟩ => rfl
  | ⟨1, _⟩ => rfl

/-- Entry `(b, v)` of the product of the rows with the transposed tile: the inner product over the 512 features. -/
theorem score_apply (x0 : FVec Ideal S1024x512 .bf16) (x1 : FVec Ideal S2000x512 .f32) (b : Fin 1024) (v : Fin 2000) :
    matmul (F := Ideal) dot_S1024x512_S2000x512_S1024x2000_1_1_0_0_n_n none
        (shapeCast S1024x512 x0 shapeCasts_S1024x512_S1024x512) (truncf .bf16 x1 bitsLt_bf16_f32)
        (constant (F := Ideal) S1024x2000 .f32 0x00000000#32) (ix2 b v)
      = ∑ d : Fin 512, x0 (ix2 b d) * x1 (ix2 v d) := by
  rw [shapeCast_self]
  simp only [matmul]
  rw [Ideal.matmul_constant_zero_apply, ← Equiv.sum_comp (contrEquiv1 dot_S1024x512_S2000x512_S1024x2000_1_1_0_0_n_n 512 rfl rfl).symm]
  refine Finset.sum_congr rfl fun k _ => ?_
  have hk := contrEquiv1_symm_val dot_S1024x512_S2000x512_S1024x2000_1_1_0_0_n_n 512 rfl rfl k
  have el : dot_S1024x512_S2000x512_S1024x2000_1_1_0_0_n_n.lhsIdx (ix2 b v) ((contrEquiv1 dot_S1024x512_S2000x512_S1024x2000_1_1_0_0_n_n 512 rfl rfl).symm k) = ix2 b k := funext fun a => Fin.ext (by
    match a with
    | ⟨0, _⟩ =>
      show (dot_S1024x512_S2000x512_S1024x2000_1_1_0_0_n_n.lhsIdx (ix2 b v) _ 0).val = b.val
      unfold DotDims.lhsIdx
      rw [dif_neg (show ¬(0 : Fin S1024x512.rank) ∈ dot_S1024x512_S2000x512_S1024x2000_1_1_0_0_n_n.lhsBatch by decide), dif_pos (show (0 : Fin S1024x512.rank) ∈ dot_S1024x512_S2000x512_S1024x2000_1_1_0_0_n_n.lhsNonContracting by decide)]
      rfl
    | ⟨1, _⟩ => exact (dot_S1024x512_S2000x512_S1024x2000_1_1_0_0_n_n.lhsIdx_val_of_single rfl (ix2 b v) _).trans hk)
  have er : dot_S1024x512_S2000x512_S1024x2000_1_1_0_0_n_n.rhsIdx (ix2 b v) ((contrEquiv1 dot_S1024x512_S2000x512_S1024x2000_1_1_0_0_n_n 512 rfl rfl).symm k) = ix2 v k := funext fun a => Fin.ext (by
    match a with
    | ⟨0, _⟩ =>
      show (dot_S1024x512_S2000x512_S1024x2000_1_1_0_0_n_n.rhsIdx (ix2 b v) _ 0).val = v.val
      unfold DotDims.rhsIdx
      rw [dif_neg (show ¬(0 : Fin S2000x512.rank) ∈ dot_S1024x512_S2000x512_S1024x2000_1_1_0_0_n_n.rhsBatch by decide), dif_pos (show (0 : Fin S2000x512.rank) ∈ dot_S1024x512_S2000x512_S1024x2000_1_1_0_0_n_n.rhsNonContracting by decide)]
      rfl
    | ⟨1, _⟩ => exact (dot_S1024x512_S2000x512_S1024x2000_1_1_0_0_n_n.rhsIdx_val_of_single rfl (ix2 b v) _).trans hk)
  rw [el, er]
  rfl

/-- Row `b` of the accumulator's update, over any 1024 × 2000 array `M` of scores: the old entry plus the sum over
    the columns of the clamped differences between the score and the row's entry of the subtracted column. -/
theorem hingeSum_apply (M : FVec Ideal S1024x2000 .f32) (c xs : FVec Ideal S1024x1 .f32) (b : Fin 1024) :
    shapeCast S1024x1 (addf xs (shapeCast S1024x1 (multiReduction (F := Ideal) .add [1] S1024
        (maximumf (subf M (broadcastTo S1024x2000 (shapeCast S1024x1 c shapeCasts_S1024x1_S1024x1) broadcasts_S1024x1_S1024x2000))
          (broadcast S1024x2000 (Scalar.ofBits .f32 0x00000000#32)))
        0x00000000#32 reduces_S1024x2000_S1024 (.inl rfl) rfl) shapeCasts_S1024_S1024x1)) shapeCasts_S1024x1_S1024x1 (ix2 b 0)
      = xs (ix2 b 0) + ∑ v : Fin 2000, max (M (ix2 b v) - c (ix2 b 0)) Cert.RankLoss.zero32 := by
  rw [shapeCast_self, shapeCast_self]
  show xs (ix2 b 0) + shapeCast S1024x1 _ shapeCasts_S1024_S1024x1 (ix2 b 0) = _
  rw [shapeCast_a_a1_apply]
  refine congrArg (xs (ix2 b 0) + ·) ((rowSum_apply _ _ _ b).trans (Finset.sum_congr rfl fun v _ => ?_))
  show max (M (ix2 b v) - broadcastTo S1024x2000 c broadcasts_S1024x1_S1024x2000 (ix2 b v)) _ = _
  rw [broadcastTo_a1_ab_apply]
  rfl

/-- Row `b` of the updated accumulator: the old entry plus the sum over the tile's 2000 classes of the clamped
    differences between the row's score against the class and the row's entry of the subtracted column. -/
theorem pay2_apply (x0 : Vec Ideal S1024x512 .bf16) (x1 : Vec Ideal S2000x512 .f32) (x2 xs : Vec Ideal S1024x1 .f32)
    (b : Fin 1024) :
    k0_pay2 (F := Ideal) x0 x1 x2 xs (ix2 b 0)
      = xs (ix2 b 0) + ∑ v : Fin 2000, max ((∑ d : Fin 512, x0 (ix2 b d) * x1 (ix2 v d)) - x2 (ix2 b 0)) Cert.RankLoss.zero32 := by
  unfold k0_pay2
  refine (hingeSum_apply _ x2 xs b).trans ?_
  refine congrArg (xs (ix2 b 0) + ·) (Finset.sum_congr rfl fun v _ => ?_)
  exact congrArg (fun s => max (s - x2 (ix2 b 0)) Cert.RankLoss.zero32) (score_apply x0 x1 b v)

/-- The leading unit axis changes no entry: a 1024 × 1 column cast to 1 × 1024 × 1 reads, at `(0, b, 0)`, the column
    at `(b, 0)` (both number their entries `b` in row-major order). -/
theorem pay3_apply (y : Vec Ideal S1024x1 .f32) (b : Fin 1024) :
    k0_pay3 (F := Ideal) y (ix3 0 b 0) = y (ix2 b 0) := by
  unfold k0_pay3
  exact shapeCast_ab_1ab_apply y shapeCasts_S1024x1_S1x1024x1 0 b 0

end Cert.KernelIdeal.Body

end
-- ==== Proof.KernelValue.lean ====
/-
  The region's result array, read off the generated frame run.

  The region walks 64 grid points; point `t` is handed tile `t` of the embedding table (classes `2000 t … 2000 t + 1999`),
  the whole block of normalised rows and the whole column to subtract.  Its column accumulator therefore holds, after
  point `t`, the running partial sum `acc t` of the specification (by induction on the point: the first point of each
  half restarts from zero, every other point adds its tile's row sums to what the point before left), and the two
  points that write back (31 and 63) put `acc 31` and `acc 63` into slots 0 and 1 of the [2, 1024, 1] result array.
-/
import proofs.«139743_j48730698940765_2_alg».proof.Proof.Gen.KernelIdeal.Frame
import proofs.«139743_j48730698940765_2_alg».proof.Proof.Spec
import proofs.«139743_j48730698940765_2_alg».proof.Proof.KernelBody
import Idealize.ShloMosaic.Lib.Pipeline.Value
import Idealize.ShloMosaic.Lib.ValueIdx
import Idealize.ShloMosaic.PureOps.Ideal.Laws
import Idealize.ShloMosaic.Lib.Tactic

noncomputable section

open scoped BigOperators

namespace Cert.KernelIdeal.Region

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The blocks the points are handed -/

/-- The printed index maps over the grid: the rows and the column never move, the table's block at point `t` is tile
    `t`, and the result's block at point `t` is slot `t / 32`. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 3) = t.val / 32 ∧ win0_3.index t (1 : Fin 3) = 0 ∧ win0_3.index t (2 : Fin 3) = 0 :=
  (by decide +kernel : ∀ t : Fin grid0.N, _)

/-- The rows' block is the whole array of normalised rows. -/
theorem blk_rows (c : Dev nD) (t : Fin cfg0.N) (b : Fin 1024) (d : Fin 512) :
    (iblk m c 0 t : Vec Ideal S1024x512 .bf16) (ix2 b d) = (V m c main_v17 : S1024x512.Idx → EReal) (ix2 b d) := by
  obtain ⟨e0, e1, -⟩ := idx_facts t
  unfold iblk
  rw [View.read_apply]
  show V m c main_v17 _ = V m c main_v17 _
  congr 1
  funext a
  apply Fin.ext
  match a with
  | ⟨0, _⟩ => show win0_0.index t 0 * 1024 + 1 * b.val = b.val; rw [e0]; omega
  | ⟨1, _⟩ => show win0_0.index t 1 * 512 + 1 * d.val = d.val; rw [e1]; omega

/-- The table's block at point `t` is tile `t`: its row `v` is class `2000 t + v`. -/
theorem blk_table (c : Dev nD) (t : Fin cfg0.N) (v : Fin 2000) (d : Fin 512) :
    (iblk m c 1 t : Vec Ideal S2000x512 .f32) (ix2 v d)
      = (V m c main_arg1 : S128000x512.Idx → EReal) (ix2 (Cert.RankLoss.tileClass ⟨t.val, lt_of_lt_of_eq t.isLt N_0⟩ v) d) := by
  obtain ⟨-, -, e0, e1, -⟩ := idx_facts t
  unfold iblk
  rw [View.read_apply]
  show V m c main_arg1 _ = V m c main_arg1 _
  congr 1
  funext a
  apply Fin.ext
  match a with
  | ⟨0, _⟩ => show win0_1.index t 0 * 2000 + 1 * v.val = t.val * 2000 + v.val; rw [e0]; omega
  | ⟨1, _⟩ => show win0_1.index t 1 * 512 + 1 * d.val = d.val; rw [e1]; omega

/-- The column's block is the whole column. -/
theorem blk_col (c : Dev nD) (t : Fin cfg0.N) (b : Fin 1024) :
    (iblk m c 2 t : Vec Ideal S1024x1 .f32) (ix2 b 0) = (V m c main_v16 : S1024x1.Idx → EReal) (ix2 b 0) := by
  obtain ⟨-, -, -, -, e0, e1, -⟩ := idx_facts t
  unfold iblk
  rw [View.read_apply]
  show V m c main_v16 _ = V m c main_v16 _
  congr 1
  funext a
  apply Fin.ext
  match a with
  | ⟨0, _⟩ => show win0_2.index t 0 * 1024 + 1 * b.val = b.val; rw [e0]; omega
  | ⟨1, _⟩ => show win0_2.index t 1 * 1 + 1 * (0 : Fin 1).val = (0 : Fin 1).val; rw [e1]; simp

/-! ## One point's update, over the arrays the region was handed -/

/-- The body's update of the accumulator, over any blocks that are the whole rows, tile `p` of the table and the whole
    column: the old entry of row `b` plus the specification's sum of the row's hinges over tile `p`. -/
theorem step (X : Cert.RankLoss.SX.Idx → EReal) (W : Cert.RankLoss.SW.Idx → EReal) (N' : Cert.RankLoss.SN.Idx → EReal)
    (p : Fin 64) (x0 : Vec Ideal S1024x512 .bf16) (x1 : Vec Ideal S2000x512 .f32) (x2 xs : Vec Ideal S1024x1 .f32)
    (h0 : ∀ (b : Fin 1024) (d : Fin 512), x0 (ix2 b d) = X (ix2 b d))
    (h1 : ∀ (v : Fin 2000) (d : Fin 512), x1 (ix2 v d) = W (ix2 (Cert.RankLoss.tileClass p v) d))
    (h2 : ∀ b : Fin 1024, x2 (ix2 b 0) = N' (ix2 b 0)) (b : Fin 1024) :
    k0_pay2 (F := Ideal) x0 x1 x2 xs (ix2 b 0) = xs (ix2 b 0) + Cert.RankLoss.tileSum X W N' p b := by
  rw [Body.pay2_apply]
  unfold Cert.RankLoss.tileSum Cert.RankLoss.hingeKer Cert.RankLoss.score
  refine congrArg (xs (ix2 b 0) + ·) (Finset.sum_congr rfl fun v _ => ?_)
  rw [h2 b]
  refine congrArg (fun s => max (s - N' (ix2 b 0)) Cert.RankLoss.zero32) (Finset.sum_congr rfl fun d _ => ?_)
  rw [h0 b d, h1 v d]

/-- The same at grid point `t`, over the arrays the region finds. -/
theorem step_at (c : Dev nD) (t : Fin cfg0.N) (xs : Vec Ideal S1024x1 .f32) (b : Fin 1024) :
    k0_pay2 (F := Ideal) (iblk m c 0 t) (iblk m c 1 t) (iblk m c 2 t) xs (ix2 b 0)
      = xs (ix2 b 0) + Cert.RankLoss.tileSum (V m c main_v17) (V m c main_arg1) (V m c main_v16) ⟨t.val, lt_of_lt_of_eq t.isLt N_0⟩ b :=
  step (V m c main_v17) (V m c main_arg1) (V m c main_v16) ⟨t.val, lt_of_lt_of_eq t.isLt N_0⟩
    (iblk m c 0 t) (iblk m c 1 t) (iblk m c 2 t) xs (blk_rows m c t) (blk_table m c t) (blk_col m c t) b

/-! ## The accumulator after every point -/

/-- After point `n` the accumulator's row `b` is the specification's running partial sum. -/
theorem scratch_eq (c : Dev nD) : ∀ (n : ℕ) (hn : n < cfg0.N) (b : Fin 1024),
    ((outsAt0 m c n hn).2 : Vec Ideal S1024x1 .f32) (ix2 b 0)
      = Cert.RankLoss.acc (V m c main_v17) (V m c main_arg1) (V m c main_v16) n (lt_of_lt_of_eq hn N_0) b
  | 0, hn, b => by
    rw [outsAt0_A m c ⟨0, hn⟩ rfl (by dsimp only; omega)]
    dsimp only
    rw [Body.sout_A]
    rw [step_at m c ⟨0, hn⟩ (k0_pay1 (F := Ideal)) b, Body.pay1_apply]
    rfl
  | n + 1, hn, b => by
    have hN : n + 1 < 64 := lt_of_lt_of_eq hn N_0
    by_cases h0 : (n + 1) % 32 = 0
    · have h1 : ¬(n + 1) % 32 = 31 := by omega
      rw [outsAt0_A m c ⟨n + 1, hn⟩ h0 h1]
      dsimp only
      rw [Body.sout_A]
      rw [step_at m c ⟨n + 1, hn⟩ (k0_pay1 (F := Ideal)) b, Body.pay1_apply]
      show _ = Cert.RankLoss.acc _ _ _ (n + 1) _ b
      rw [Cert.RankLoss.acc, if_pos h0]
    · by_cases h1 : (n + 1) % 32 = 31
      · rw [outsAt0_C m c ⟨n + 1, hn⟩ h0 h1]
        dsimp only
        rw [Body.sout_C]
        rw [step_at m c ⟨n + 1, hn⟩ _ b]
        show (outsAt0 m c n _).2 (ix2 b 0) + _ = Cert.RankLoss.acc _ _ _ (n + 1) _ b
        rw [scratch_eq c n (Nat.lt_of_succ_lt hn) b, Cert.RankLoss.acc, if_neg h0]
      · rw [outsAt0_B m c ⟨n + 1, hn⟩ h0 h1]
        dsimp only
        rw [Body.sout_B]
        rw [step_at m c ⟨n + 1, hn⟩ _ b]
        show (outsAt0 m c n _).2 (ix2 b 0) + _ = Cert.RankLoss.acc _ _ _ (n + 1) _ b
        rw [scratch_eq c n (Nat.lt_of_succ_lt hn) b, Cert.RankLoss.acc, if_neg h0]

/-! ## The result array -/

/-- The running partial sum at any natural number (zero past the grid): the result array is stated through it, free of
    bounds that depend on the index. -/
def accN (c : Dev nD) (n : ℕ) (b : Fin 1024) : EReal :=
  if h : n < 64 then Cert.RankLoss.acc (V m c main_v17) (V m c main_arg1) (V m c main_v16) n h b else 0

theorem accN_lt (c : Dev nD) (n : ℕ) (h : n < 64) (b : Fin 1024) :
    accN m c n b = Cert.RankLoss.acc (V m c main_v17) (V m c main_arg1) (V m c main_v16) n h b := by
  unfold accN; rw [dif_pos h]

/-- The result array: slot `s`, row `b` holds the partial sum after tile `32 s + 31`. -/
def result (c : Dev nD) : S2x1024x1.Idx → EReal := fun i => accN m c (32 * (i 0).val + 31) (i 1)

/-- A writing-back point `t` (the last of its half) writes block `t / 32` of that array: the output block is the
    accumulator after the point, which is the partial sum after tile `t`, and `32 (t / 32) + 31 = t`. -/
theorem flushed_eq (c : Dev nD) (t : Fin cfg0.N) (hf : (cfg0.win 3).flush t = true) :
    (dats m 0 c).flushed 3 t = ((cfg0.win 3).blk t).view.read (Elt Ideal) (result m c) := by
  have hN : t.val < 64 := lt_of_lt_of_eq t.isLt N_0
  have h1 : t.val % 32 = 31 := (flush0_3 t).mp hf
  have h0 : ¬t.val % 32 = 0 := by omega
  obtain ⟨-, -, -, -, -, -, e0, e1, e2⟩ := idx_facts t
  have hs : ∀ b : Fin 1024, ((outsAt0 m c t.val t.isLt).2 : Vec Ideal S1024x1 .f32) (ix2 b 0)
      = Cert.RankLoss.acc (V m c main_v17) (V m c main_arg1) (V m c main_v16) t.val hN b := fun b => scratch_eq m c t.val t.isLt b
  show (cfg0.win 3).cut (grid0.coords t) ((dats m 0 c).after 3 t) = _
  rw [after0_3]
  rw [outsAt0_C m c t h0 h1] at hs ⊢
  dsimp only at hs ⊢
  rw [Body.sout_C] at hs
  rw [Body.out_C]
  funext j
  obtain ⟨s, b, z, rfl⟩ : ∃ (s : Fin 1) (b : Fin 1024) (z : Fin 1), j = (ix3 s b z : S1x1024x1.Idx) := ⟨j 0, j 1, j 2, eq_ix3 j⟩
  obtain rfl : s = 0 := Subsingleton.elim _ _
  obtain rfl : z = 0 := Subsingleton.elim _ _
  rw [View.read_apply]
  have he : ((cfg0.win 3).blk t).view.emb (ix3 (0 : Fin 1) b (0 : Fin 1) : S1x1024x1.Idx)
      = (ix3 (⟨t.val / 32, by omega⟩ : Fin 2) b (0 : Fin 1) : S2x1024x1.Idx) := by
    funext a
    apply Fin.ext
    match a with
    | ⟨0, _⟩ => show win0_3.index t 0 * 1 + 1 * (0 : Fin 1).val = t.val / 32; rw [e0]; simp
    | ⟨1, _⟩ => show win0_3.index t 1 * 1024 + 1 * b.val = b.val; rw [e1]; omega
    | ⟨2, _⟩ => show win0_3.index t 2 * 1 + 1 * (0 : Fin 1).val = (0 : Fin 1).val; rw [e2]; simp
  rw [he]
  show k0_pay3 (F := Ideal) _ (ix3 0 b 0) = accN m c (32 * (t.val / 32) + 31) b
  rw [Body.pay3_apply, hs b, show 32 * (t.val / 32) + 31 = t.val from by omega, accN_lt m c t.val hN b]

/-- The two writing-back points' blocks are the two slots, so the array ends holding `result`. -/
theorem final (c : Dev nD) : (dats m 0 c).arrAt 3 cfg0.N = result m c :=
  (dats m 0 c).arrAt_eq_of_cover 3 (result m c) (flushed_eq m c) fun (i : S2x1024x1.Idx) => by
    have hi0 : (i 0).val < 2 := (i 0).isLt
    have hi1 : (i 1).val < 1024 := (i 1).isLt
    have hi2 : (i 2).val < 1 := (i 2).isLt
    have hlt : 32 * (i 0).val + 31 < cfg0.N := by rw [show cfg0.N = 64 from N_0]; omega
    refine ⟨⟨32 * (i 0).val + 31, hlt⟩, (flush0_3 _).mpr (by dsimp only; omega), ?_⟩
    obtain ⟨-, -, -, -, -, -, e0, e1, e2⟩ := idx_facts ⟨32 * (i 0).val + 31, hlt⟩
    dsimp only at e0
    show i ∈ ((View.whole main_v18).slice (win0_3.rect ⟨32 * (i 0).val + 31, hlt⟩)).set
    rw [View.set_slice_whole, Rect.mem_set_unit]
    intro a
    match a with
    | ⟨0, _⟩ =>
      show win0_3.index ⟨32 * (i 0).val + 31, hlt⟩ 0 * 1 ≤ (i 0).val ∧ (i 0).val < win0_3.index ⟨32 * (i 0).val + 31, hlt⟩ 0 * 1 + 1
      rw [e0]; omega
    | ⟨1, _⟩ =>
      show win0_3.index ⟨32 * (i 0).val + 31, hlt⟩ 1 * 1024 ≤ (i 1).val ∧ (i 1).val < win0_3.index ⟨32 * (i 0).val + 31, hlt⟩ 1 * 1024 + 1024
      rw [e1]; omega
    | ⟨2, _⟩ =>
      show win0_3.index ⟨32 * (i 0).val + 31, hlt⟩ 2 * 1 ≤ (i 2).val ∧ (i 2).val < win0_3.index ⟨32 * (i 0).val + 31, hlt⟩ 2 * 1 + 1
      rw [e2]; omega

end Cert.KernelIdeal.Region

end
-- ==== Proof.KernelRun.lean ====
/-
  The kernel program's run, read: its result is the kernel's arrangement of the loss.

  The generated frame run leaves the region's result array at the two partial sums (`Region.final`), and the host
  operations after the region add the two slots per row, add the rows and divide by 1024 (`HostSide.tail_value`):
  together, `lossKer` of the arrays the region was handed.
-/
import proofs.«139743_j48730698940765_2_alg».proof.Proof.KernelValue
import proofs.«139743_j48730698940765_2_alg».proof.Proof.HostSide

noncomputable section

open scoped BigOperators

namespace Cert.KernelIdeal.Region

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The program's result from the result array: per row the two slots added from zero, the rows added from zero,
    over 1024 — the kernel's arrangement of the loss over the arrays the region finds. -/
theorem result_value (c : Dev nD) :
    Pipeline.afterTail₀ cfgs (dats m) 0 (V0 m) [hostOps1] c main_v21
      = fun _ => Cert.RankLoss.lossKer (V m c main_v17) (V m c main_arg1) (V m c main_v16) := by
  rw [HostSide.tail_value_of m c (result m c) (final m c)]
  funext _
  unfold Cert.RankLoss.lossKer
  refine congrArg (fun s => Ideal.div (Cert.RankLoss.zero32 + s) Cert.RankLoss.batch) (Finset.sum_congr rfl fun i _ => ?_)
  refine congrArg (Cert.RankLoss.zero32 + ·) (Finset.sum_congr rfl fun k _ => ?_)
  show accN m c (32 * k.val + 31) (i 0) = _
  exact accN_lt m c (32 * k.val + 31) (by have := k.isLt; omega) (i 0)

/-- Every weakly fair execution of the kernel program ends with its result at that value and its arguments unchanged. -/
theorem run : θ_run (defs (F := Ideal)) (onTc (τ := τ) (main (F := Ideal))) ⟨m, fun _ => 0, ρ⟩ fun r => ∀ c : Dev nD,
      r.2.mem ((c.tc : Thread nD τ).loc main_v21) = (fun _ => Cert.RankLoss.lossKer (V m c main_v17) (V m c main_arg1) (V m c main_v16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v21 (Pipeline.mem_restRefs_of main_v21 (by decide) (by decide))).trans (result_value m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Region

end
-- ==== Proof.lean ====
/-
  The certificate: a Pallas margin-ranking-loss kernel against its jnp reference, equal over the extended reals.

  Both programs normalise the rows of the input, `X = inputs / max(‖inputs‖, eps)`, gather each row's true-class
  score `N b = ⟨X b, W[target b]⟩` with the same host operations, and then compute

      ( Σ_b Σ_v max (margin + ⟨X b, W v⟩ − N b, 0) ) / 1024 .

  The reference forms every hinge as `(margin + s) − N b` and sums each row over the 128000 classes at once.  The kernel
  is handed the column `N − margin`, forms the hinge as `s − (N b − margin)`, and sums each row tile by tile (64 tiles
  of 2000 classes) into two partial sums that the host adds afterwards.  The two hinges are one extended real because
  the margin is a real number (so its negation distributes, whatever `s` and `N b` are), and the two summations are
  the same finite sum re-indexed; no finiteness of the inputs is used.

  The pieces: `Spec` states both arrangements over abstract arrays; `Algebra` proves them equal; `RefSide` reads the
  reference's run as the first; `KernelBody`, `KernelValue`, `HostSide` and `KernelRun` read the kernel program's run as
  the second; here the normalised rows and the true-class column of the two programs are identified (the same host
  operations on arguments that agree) and the claims assembled.  The ideal pass rewrote nothing, so `preserves` is
  trivial; the kernels' frames are the generated frame runs, the reference's frame is its run with the result dropped.
-/
import proofs.«139743_j48730698940765_2_alg».proof.Defs
import proofs.«139743_j48730698940765_2_alg».proof.Proof.Gen.Kernel
import proofs.«139743_j48730698940765_2_alg».proof.Proof.Gen.Kernel.Skeleton
import proofs.«139743_j48730698940765_2_alg».proof.Proof.Gen.Kernel.Launch
import proofs.«139743_j48730698940765_2_alg».proof.Proof.Gen.Kernel.Points
import proofs.«139743_j48730698940765_2_alg».proof.Proof.Gen.Kernel.Frame
import proofs.«139743_j48730698940765_2_alg».proof.Proof.Gen.KernelIdeal
import proofs.«139743_j48730698940765_2_alg».proof.Proof.Gen.KernelIdeal.Skeleton
import proofs.«139743_j48730698940765_2_alg».proof.Proof.Gen.KernelIdeal.Launch
import proofs.«139743_j48730698940765_2_alg».proof.Proof.Gen.KernelIdeal.Points
import proofs.«139743_j48730698940765_2_alg».proof.Proof.Gen.KernelIdeal.Frame
import proofs.«139743_j48730698940765_2_alg».proof.Proof.Gen.ReferenceIdeal
import proofs.«139743_j48730698940765_2_alg».proof.Proof.Gen.ReferenceIdeal.Run
import proofs.«139743_j48730698940765_2_alg».proof.Proof.Gen.ReferenceIdeal.Read
import proofs.«139743_j48730698940765_2_alg».proof.Proof.Gen.Pre_finite_inputs
import proofs.«139743_j48730698940765_2_alg».proof.Proof.Spec
import proofs.«139743_j48730698940765_2_alg».proof.Proof.Algebra
import proofs.«139743_j48730698940765_2_alg».proof.Proof.RefSide
import proofs.«139743_j48730698940765_2_alg».proof.Proof.HostSide
import proofs.«139743_j48730698940765_2_alg».proof.Proof.KernelRun
import Idealize.ShloMosaic.Adequacy
import Idealize.ShloMosaic.Init

noncomputable section

namespace Cert.Proof

open Idealize.ShloMosaic Idealize.ShloMosaic.TcCoe Idealize.SL.Sem

/-- The normalised rows: the kernel program's host operations compute them exactly as the reference's do. -/
theorem rows_eq (a0 : Cert.KernelIdeal.S1024x512.Idx → EReal) :
    Cert.KernelIdeal.HostSide.rowsK a0 = Cert.ReferenceIdeal.Read.val_main_v4 (F := Ideal) a0 := rfl

/-- The column of true-class scores likewise. -/
theorem col_eq (a0 : Cert.KernelIdeal.S1024x512.Idx → EReal) (a1 : Cert.KernelIdeal.S128000x512.Idx → EReal)
    (a2 : (⟨Cert.KernelIdeal.S1024, .i32⟩ : BufTy).Contents (Elt Ideal)) :
    Cert.KernelIdeal.HostSide.colK a0 a1 a2 = Cert.ReferenceIdeal.Read.val_main_v15 (F := Ideal) a0 a1 a2 := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- At the ideal instance the kernel program ends at the kernel's arrangement of the loss over the arrays its region is
    handed — the normalised rows, the table, and the true-class column minus the margin — and the reference at its own
    arrangement over the rows, the table and the column, of arguments that agree: one extended real. -/
theorem algebraic : Cert.algebraic_KernelIdeal_ReferenceIdeal := by
  intro m ρ m' ρ' _ hagree
  refine ⟨fun c => (fun _ => Cert.RankLoss.lossKer (Cert.KernelIdeal.Gen.V m c Cert.KernelIdeal.main_v17)
    (Cert.KernelIdeal.Gen.V m c Cert.KernelIdeal.main_arg1) (Cert.KernelIdeal.Gen.V m c Cert.KernelIdeal.main_v16)),
    Cert.KernelIdeal.Region.run m ρ, ?_⟩
  refine (θ_run Cert.ReferenceIdeal.defs _ _).mono (fun _ h c => ⟨(h c).1.trans ?_, (h c).2⟩)
    (Cert.ReferenceIdeal.RefSide.run m' ρ')
  rw [(hagree c).1, (hagree c).2.1, (hagree c).2.2]
  beta_reduce
  rw [Cert.KernelIdeal.HostSide.V_rows m c, Cert.KernelIdeal.Gen.V_main_arg1 m c,
    show (Cert.KernelIdeal.Gen.V m c Cert.KernelIdeal.main_v16 : Cert.KernelIdeal.S1024x1.Idx → EReal)
      = fun i => Cert.KernelIdeal.HostSide.colK (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) i - Cert.RankLoss.margin
      from funext (Cert.KernelIdeal.HostSide.V_col m c)]
  rw [Cert.RankLoss.lossKer_eq_lossRef, rows_eq, col_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
